-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x1024x1024 : Shape := ⟨3, ![64, 1024, 1024]⟩
abbrev S128x128 : Shape := ⟨2, ![128, 128]⟩
abbrev S128 : Shape := ⟨1, ![128]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S64x1024x128 .f32) (main_arg1 : FVec F S64x1024x1024 .f32) (main_arg2 : FVec F S128x128 .f32) (main_arg3 : FVec F S128 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S64x1024x128 : Shape := ⟨3, ![64, 1024, 128]⟩
abbrev S64x1024x1024 : Shape := ⟨3, ![64, 1024, 1024]⟩
abbrev S128x128 : Shape := ⟨2, ![128, 128]⟩
abbrev S128 : Shape := ⟨1, ![128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S64x1024x128, .f32⟩
  | .hbm, ⟨1, _⟩ => ⟨S64x1024x1024, .f32⟩
  | .hbm, ⟨2, _⟩ => ⟨S128x128, .f32⟩
  | .hbm, ⟨3, _⟩ => ⟨S128, .f32⟩
  | .hbm, ⟨4, _⟩ => ⟨S64x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S128, .f32⟩
  | .local _ .vmem, ⟨6, _⟩ => ⟨S1x1024x128, .f32⟩
  | .local _ .vmem, ⟨7, _⟩ => ⟨S1x1024x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x1024x128.size a
  hwx0_1 : ∀ i : grid0.Coords, EltTy.bits .f32 = 32 ∨ (Rect.block (s := S64x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S64x1024x128.size a
  hwx0_4 : ∀ i : grid0.Coords, EltTy.bits .f32 = 32 ∨ (Rect.block (s := S64x1024x128) S1x1024x128.size (cc0_transform_4 i) (hinb0_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S64x1024x1024 : Shape := ⟨3, ![64, 1024, 1024]⟩
abbrev S128x128 : Shape := ⟨2, ![128, 128]⟩
abbrev S128 : Shape := ⟨1, ![128]⟩
abbrev S_ : Shape := ⟨0, ![]⟩
abbrev S64x1024 : Shape := ⟨2, ![64, 1024]⟩
abbrev S64x1024x1 : Shape := ⟨3, ![64, 1024, 1]⟩
abbrev S1x1x128 : Shape := ⟨3, ![1, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024x1024, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S64x1024, .f32⟩
  | .hbm, ⟨6, _⟩ => ⟨S64x1024x1, .f32⟩
  | .hbm, ⟨7, _⟩ => ⟨S64x1024x1024, .f32⟩
  | .hbm, ⟨8, _⟩ => ⟨S64x1024x1024, .f32⟩
  | .hbm, ⟨9, _⟩ => ⟨S64x1024x128, .f32⟩
  | .hbm, ⟨10, _⟩ => ⟨S64x1024x128, .f32⟩
  | .hbm, ⟨11, _⟩ => ⟨S1x1x128, .f32⟩
  | .hbm, ⟨12, _⟩ => ⟨S64x1024x128, .f32⟩
  | .hbm, ⟨13, _⟩ => ⟨S64x1024x128, .f32⟩
  | .hbm, ⟨14, _⟩ => ⟨S_, .f32⟩
  | .hbm, ⟨15, _⟩ => ⟨S64x1024x128, .f32⟩
  | .hbm, ⟨16, _⟩ => ⟨S64x1024x128, .i1⟩
  | .hbm, ⟨17, _⟩ => ⟨S_, .f32⟩
  | .hbm, ⟨18, _⟩ => ⟨S64x1024x128, .f32⟩
  | .hbm, ⟨19, _⟩ => ⟨S64x1024x128, .f32⟩
  | .hbm, ⟨20, _⟩ => ⟨S64x1024x128, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S64x1024x1024_S64x1024_d2 : S64x1024x1024.ReducesTo [2] S64x1024
  h_S_ : 0 < S_.numel
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S128_S1x1x128_2 : S128.BroadcastsInDim S1x1x128 (![2] : Fin 1 → Fin S1x1x128.rank)
  bcast_S1x1x128_S64x1024x128_0_1_2 : S1x1x128.BroadcastsInDim S64x1024x128 (![0, 1, 2] : Fin 3 → Fin S64x1024x128.rank)
  bcast_S_S64x1024x128 : S_.BroadcastsInDim S64x1024x128 (![] : Fin 0 → Fin S64x1024x128.rank)
  dot_S64x1024x1024_S64x1024x128_S64x1024x128_2_1_1_2_0_0_wf : DotDims.WF S64x1024x1024 S64x1024x128 S64x1024x128 [2] [1] [1] [2] [0] [0]
  dot_S64x1024x128_S128x128_S64x1024x128_2_1_01_0_n_n_wf : DotDims.WF S64x1024x128 S128x128 S64x1024x128 [2] [1] [0, 1] [0] [] []

variable [Facts₀]

def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf
def dot_S64x1024x128_S128x128_S64x1024x128_2_1_01_0_n_n : DotDims S64x1024x128 S128x128 S64x1024x128 where
  lhsContracting := [2]
  rhsContracting := [1]
  lhsNonContracting := [0, 1]
  rhsNonContracting := [0]
  lhsBatch := []
  rhsBatch := []
  wf := dot_S64x1024x128_S128x128_S64x1024x128_2_1_01_0_n_n_wf

class Facts : Prop extends Facts₀ where

variable [Facts]
-- ==== Proof.Spec.lean ====
/-
  The graph convolution both programs compute, as one function of the four argument arrays over the extended reals.

  For a batch `b`, a node `i` and an output feature `o`:
    * the row of the adjacency matrix at `(b, i)` is divided, entry by entry, by the row's sum (its degree);
    * the normalized row is contracted with the batch's node features, giving one aggregated feature vector;
    * that vector is contracted with row `o` of the weight matrix, and the bias entry `o` is added;
    * a leaky rectifier follows: the value itself where it is at least zero, the slope literal times the value elsewhere.
  Nothing here needs the inputs to be finite: the two programs apply the same operations in the same order and
  grouping, so no law of the extended reals beyond `0 + x = x` (the reference's sum starts from a zero, the
  kernel's lane sum does not) is used anywhere in the certificate.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- The leaky rectifier on one extended real: `x` where `x ≥ 0`, the slope literal times `x` elsewhere. The zero
    and the slope are kept as the binary32 words both programs print. -/
def leaky (x : EReal) : EReal :=
  Scalar.select (Ideal.cmp .oge x (Ideal.ofBits .f32 0x00000000#32)) x (Ideal.ofBits .f32 0x3C23D70A#32 * x)

/-- One entry of the result from the data it depends on: `a` the adjacency row, `n` the batch's node features
    (node, feature), `w` the weight row of the output feature, `β` its bias. -/
def cell (a : Fin 1024 → EReal) (n : Fin 1024 → Fin 128 → EReal) (w : Fin 128 → EReal) (β : EReal) : EReal :=
  leaky ((∑ f : Fin 128, (∑ j : Fin 1024, Ideal.div (a j) (∑ k : Fin 1024, a k) * n j f) * w f) + β)

/-- The whole result array as a function of the argument arrays, index by index. -/
def result (node : (⟨3, ![64, 1024, 128]⟩ : Shape).Idx → EReal) (adj : (⟨3, ![64, 1024, 1024]⟩ : Shape).Idx → EReal)
    (W : (⟨2, ![128, 128]⟩ : Shape).Idx → EReal) (bias : (⟨1, ![128]⟩ : Shape).Idx → EReal) :
    (⟨3, ![64, 1024, 128]⟩ : Shape).Idx → EReal := fun i =>
  cell (fun j => adj (ix3 (i 0) (i 1) j)) (fun j f => node (ix3 (i 0) j f)) (fun f => W (ix2 (i 2) f)) (bias (ix1 (i 2)))

end Cert.GraphConv

end
-- ==== Proof.RefIsSpec.lean ====
/-
  The reference program's result, read one operation at a time, is the specification: its row sum starts from a
  zero word (which denotes `0`), its two `dot_general`s are the plain sums over the contracted axis, its quotient is
  the extended reals' division, and its comparison, product and select are the leaky rectifier's.
-/
import proofs.«116833_j29583734735048_1_alg».proof.Proof.Gen.ReferenceIdeal.Read
import proofs.«116833_j29583734735048_1_alg».proof.Proof.Spec

noncomputable section

open scoped BigOperators

namespace Cert.GraphConv.Ref

open Cert.ReferenceIdeal Cert.ReferenceIdeal.Read Idealize.ShloMosaic Idealize.ShloMosaic.ValueIdx Cert.GraphConv

variable (node : (⟨S64x1024x128, .f32⟩ : BufTy).Contents (Elt Ideal)) (adj : (⟨S64x1024x1024, .f32⟩ : BufTy).Contents (Elt Ideal))
  (W : (⟨S128x128, .f32⟩ : BufTy).Contents (Elt Ideal)) (bias : (⟨S128, .f32⟩ : BufTy).Contents (Elt Ideal))

/-- The degree of node `r` in batch `b`: the reference's sum over the row, started from zero. -/
theorem degree (b : Fin 64) (r : Fin 1024) :
    val_main_v0 (F := Ideal) adj (ix2 b r) = ∑ k : Fin 1024, adj (ix3 b r k) := by
  rw [val_main_v0_apply]
  have hz : ∀ j : S_.Idx, val_main_cst (F := Ideal) j = 0 := fun _ => Ideal.ofBits_zero_f32
  rw [hz, zero_add]
  refine Finset.sum_congr rfl fun k _ => congrArg adj (funext fun a => Fin.ext ?_)
  match a with
  | ⟨0, _⟩ => rfl
  | ⟨1, _⟩ => rfl
  | ⟨2, _⟩ => rfl

/-- The normalized adjacency entry: the entry over its row's degree (the degree broadcast along the row). -/
theorem normalized (b : Fin 64) (r k : Fin 1024) :
    val_main_v3 (F := Ideal) adj (ix3 b r k) = Ideal.div (adj (ix3 b r k)) (∑ k' : Fin 1024, adj (ix3 b r k')) := by
  rw [val_main_v3_apply, val_main_v2_apply, val_main_v1_apply]
  have e : idx_main_v1 (idx_main_v2 (ix3 b r k)) = ix2 b r := funext fun a => Fin.ext (by
    match a with
    | ⟨0, _⟩ => rfl
    | ⟨1, _⟩ => rfl)
  rw [e, degree]
  rfl

/-- The aggregated feature `f` of node `r`: the normalized row against the batch's node features. -/
theorem aggregated (b : Fin 64) (r : Fin 1024) (f : Fin 128) :
    val_main_v4 (F := Ideal) node adj (ix3 b r f)
      = ∑ j : Fin 1024, Ideal.div (adj (ix3 b r j)) (∑ k : Fin 1024, adj (ix3 b r k)) * node (ix3 b j f) := by
  rw [val_main_v4_apply]
  refine Finset.sum_congr rfl fun j _ => ?_
  have el : lidx_main_v4 (ix3 b r f) j = ix3 b r j := funext fun a => Fin.ext (by
    match a with
    | ⟨0, _⟩ => rfl
    | ⟨1, _⟩ => rfl
    | ⟨2, _⟩ => rfl)
  have er : ridx_main_v4 (ix3 b r f) j = ix3 b j f := funext fun a => Fin.ext (by
    match a with
    | ⟨0, _⟩ => rfl
    | ⟨1, _⟩ => rfl
    | ⟨2, _⟩ => rfl)
  rw [el, er, normalized]

/-- The linear layer before the bias: the aggregated vector against row `o` of the weights. -/
theorem linear (b : Fin 64) (r : Fin 1024) (o : Fin 128) :
    val_main_v5 (F := Ideal) node adj W (ix3 b r o)
      = ∑ f : Fin 128, (∑ j : Fin 1024, Ideal.div (adj (ix3 b r j)) (∑ k : Fin 1024, adj (ix3 b r k)) * node (ix3 b j f)) * W (ix2 o f) := by
  rw [val_main_v5_apply]
  refine Finset.sum_congr rfl fun f _ => ?_
  have el : lidx_main_v5 (ix3 b r o) f = ix3 b r f := funext fun a => Fin.ext (by
    match a with
    | ⟨0, _⟩ => rfl
    | ⟨1, _⟩ => rfl
    | ⟨2, _⟩ => rfl)
  have er : ridx_main_v5 (ix3 b r o) f = ix2 o f := funext fun a => Fin.ext (by
    match a with
    | ⟨0, _⟩ => rfl
    | ⟨1, _⟩ => rfl)
  rw [el, er, aggregated]

/-- With the bias, broadcast over batches and nodes. -/
theorem biased (b : Fin 64) (r : Fin 1024) (o : Fin 128) :
    val_main_v8 (F := Ideal) node adj W bias (ix3 b r o)
      = (∑ f : Fin 128, (∑ j : Fin 1024, Ideal.div (adj (ix3 b r j)) (∑ k : Fin 1024, adj (ix3 b r k)) * node (ix3 b j f)) * W (ix2 o f))
        + bias (ix1 o) := by
  rw [val_main_v8_apply, val_main_v7_apply, val_main_v6_apply, linear]
  have e : idx_main_v6 (idx_main_v7 (ix3 b r o)) = ix1 o := funext fun a => Fin.ext (by
    match a with
    | ⟨0, _⟩ => rfl)
  rw [e]
  rfl

/-- The reference's result array is the specification of the argument arrays. -/
theorem result_eq : val_main_v13 (F := Ideal) node adj W bias = result node adj W bias := by
  funext i
  obtain ⟨b, r, o, rfl⟩ : ∃ (b : Fin 64) (r : Fin 1024) (o : Fin 128), i = ix3 b r o := ⟨i 0, i 1, i 2, eq_ix3 i⟩
  rw [val_main_v13_apply, val_main_v10_apply, val_main_v12_apply, val_main_v9_apply, val_main_v11_apply, biased]
  rfl

end Cert.GraphConv.Ref

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.Payload.lean ====
/-
  The kernel body's arithmetic, read at one entry of the block it stores.

  The body works on one batch: its adjacency block `x0` and node-feature block `x1` (each with a leading unit
  axis), the whole weight matrix `x2` and bias `x3`. Read at row `r` and output feature `o`, what it stores is the
  specification's `cell` of row `r` of the adjacency block, the node-feature block, row `o` of the weights and
  entry `o` of the bias:
    * the lane sum over a row is the plain sum of the row's entries;
    * the sum, kept as a column and broadcast back along the row, divides each entry of the row;
    * the two matrix products into a zero accumulator are plain sums over the contracted coordinate
      (the second against the transposed weights, so it runs along a ROW of the weight matrix);
    * the narrowing to a sixteen-bit format before each product is the identity on extended reals;
    * bias, comparison with zero, product with the slope and select act entry by entry.
-/
import proofs.«116833_j29583734735048_1_alg».proof.Proof.Gen.KernelIdeal.Skeleton
import proofs.«116833_j29583734735048_1_alg».proof.Proof.Spec
import proofs.«116833_j29583734735048_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Body

open Cert.KernelIdeal Cert.KernelIdeal.Gen Idealize.ShloMosaic Idealize.ShloMosaic.ValueIdx Cert.GraphConv Cert.GraphConv.Column

/-- The lane sum of a `[1024, 1024]` matrix along its rows, at row `r`: the sum of the row's entries. -/
theorem lane_sum (v : FVec Ideal S1024x1024 .f32) (hφ : FKind.Formats .f32)
    (hacc : (0x00000000#32 : BitVec 32) = FKind.add.neutral .f32 hφ) (r : Fin 1024) :
    multiReduction .add [1] S1024 v 0x00000000#32 reduces_S1024x1024_S1024 hφ hacc (ix1 r) = ∑ k : Fin 1024, v (ix2 r k) := by
  refine (Ideal.multiReduction_add_single v 0x00000000#32 reduces_S1024x1024_S1024 hφ hacc (ix1 r)).trans ?_
  refine Finset.sum_congr rfl fun k _ => congrArg v (funext fun a => Fin.ext ?_)
  match a with
  | ⟨0, _⟩ => rfl
  | ⟨1, _⟩ => rfl

/-! ## The two matrix products, each into a zero accumulator -/

theorem agg_lhs_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem agg_lhs_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem agg_rhs_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem agg_rhs_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The aggregation product at `(r, f)`: row `r` of the left matrix against column `f` of the right one. -/
theorem agg_apply (l : FVec Ideal S1024x1024 .bf16) (n : FVec Ideal S1024x128 .bf16) (r : Fin 1024) (f : Fin 128) :
    matmul dot_S1024x1024_S1024x128_S1024x128_1_0_0_1_n_n none l n (constant S1024x128 .f32 0x00000000#32) (ix2 r f)
      = ∑ j : Fin 1024, l (ix2 r j) * n (ix2 j f) := by
  refine (Ideal.matmul_constant_zero_apply dot_S1024x1024_S1024x128_S1024x128_1_0_0_1_n_n none l n (ix2 r f)).trans ?_
  rw [← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r f) ((ValueIdx.contrEquiv1 dot_S1024x1024_S1024x128_S1024x128_1_0_0_1_n_n 1024 rfl rfl).symm k) = ix2 r k := funext fun a => Fin.ext (by
    match a with
    | ⟨0, _⟩ => exact agg_lhs_0 _ _
    | ⟨1, _⟩ => exact (agg_lhs_1 _ _).trans hk)
  have er : dot_S1024x1024_S1024x128_S1024x128_1_0_0_1_n_n.rhsIdx (ix2 r f) ((ValueIdx.contrEquiv1 dot_S1024x1024_S1024x128_S1024x128_1_0_0_1_n_n 1024 rfl rfl).symm k) = ix2 k f := funext fun a => Fin.ext (by
    match a with
    | ⟨0, _⟩ => exact (agg_rhs_0 _ _).trans hk
    | ⟨1, _⟩ => exact agg_rhs_1 _ _)
  rw [el, er]

theorem lin_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lin_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem lin_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem lin_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The linear layer's product at `(r, o)`: row `r` of the left matrix against column `o` of the right one. -/
theorem lin_apply (l : FVec Ideal S1024x128 .bf16) (w : FVec Ideal S128x128 .bf16) (r : Fin 1024) (o : Fin 128) :
    matmul dot_S1024x128_S128x128_S1024x128_1_0_0_1_n_n none l w (constant S1024x128 .f32 0x00000000#32) (ix2 r o)
      = ∑ f : Fin 128, l (ix2 r f) * w (ix2 f o) := by
  refine (Ideal.matmul_constant_zero_apply dot_S1024x128_S128x128_S1024x128_1_0_0_1_n_n none l w (ix2 r o)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r o) ((ValueIdx.contrEquiv1 dot_S1024x128_S128x128_S1024x128_1_0_0_1_n_n 128 rfl rfl).symm k) = ix2 r k := funext fun a => Fin.ext (by
    match a with
    | ⟨0, _⟩ => exact lin_lhs_0 _ _
    | ⟨1, _⟩ => exact (lin_lhs_1 _ _).trans hk)
  have er : dot_S1024x128_S128x128_S1024x128_1_0_0_1_n_n.rhsIdx (ix2 r o) ((ValueIdx.contrEquiv1 dot_S1024x128_S128x128_S1024x128_1_0_0_1_n_n 128 rfl rfl).symm k) = ix2 k o := funext fun a => Fin.ext (by
    match a with
    | ⟨0, _⟩ => exact (lin_rhs_0 _ _).trans hk
    | ⟨1, _⟩ => exact lin_rhs_1 _ _)
  rw [el, er]

/-! ## The rectifier, entry by entry -/

/-- Comparison with the zero splat, product with the slope splat and select, read at one entry of a vector whose
    entry there is `s`, are the leaky rectifier of `s`. -/
theorem rectified (P : FVec Ideal S1024x128 .f32) (r : Fin 1024) (o : Fin 128) (s : EReal) (h : P (ix2 r o) = s) :
    select (cmpf .oge P (broadcast S1024x128 (Scalar.ofBits .f32 0x00000000#32))) P
        (mulf (broadcast S1024x128 (Scalar.ofBits .f32 0x3C23D70A#32)) P) (ix2 r o) = leaky s := by
  subst h
  rfl

/-! ## The stored block at an entry -/

/-- What the body stores, at row `r` and output feature `o` of its `[1, 1024, 128]` block. -/
theorem payload_apply (x0 : FVec Ideal S1x1024x1024 .f32) (x1 : FVec Ideal S1x1024x128 .f32) (x2 : FVec Ideal S128x128 .f32)
    (x3 : FVec Ideal S128 .f32) (u : Fin 1) (r : Fin 1024) (o : Fin 128) :
    k0_pay1 (F := Ideal) x0 x1 x2 x3 (ix3 u r o)
      = cell (fun j => x0 (ix3 (0 : Fin 1) r j)) (fun j f => x1 (ix3 (0 : Fin 1) j f)) (fun f => x2 (ix2 o f)) (x3 (ix1 o)) := by
  unfold k0_pay1 cell
  refine (shapeCast_ab_1ab_apply _ _ u r o).trans ?_
  refine rectified _ r o _ ?_
  -- the entry before the rectifier: the second product plus the broadcast bias
  refine congrArg₂ (· + ·) ?_ ?_
  · refine (lin_apply _ _ r o).trans (Finset.sum_congr rfl fun f _ => congrArg₂ (· * ·) ?_ ?_)
    · -- the aggregated feature: the first product, over the normalized row and the node features
      refine (agg_apply _ _ r f).trans (Finset.sum_congr rfl fun j _ => congrArg₂ (· * ·) ?_ ?_)
      · refine congrArg₂ Ideal.div (shapeCast_1ab_ab_apply x0 _ r j) ?_
        refine (broadcastTo_a1_ab_apply _ _ r j).trans ((shapeCast_a_a1_apply _ _ r 0).trans ?_)
        exact (lane_sum _ _ _ r).trans (Finset.sum_congr rfl fun k _ => shapeCast_1ab_ab_apply x0 _ r k)
      · exact shapeCast_1ab_ab_apply x1 _ j f
    · -- the transposed weights at (f, o) are the weights at (o, f)
      exact transpose_ix2_apply _ _ f o
  · exact (broadcastTo_1b_ab_apply _ _ r o).trans (shapeCast_a_1a_apply x3 _ 0 o)

end Cert.GraphConv.Body

end
-- ==== Proof.KernelValue.lean ====
/-
  The kernel's result array after the run, as the specification of the argument arrays.

  The grid has one point per batch. At point `t` the adjacency and node-feature windows hold batch `t` of their
  arrays (one block of extent one along the batch axis), the weight and bias windows hold their whole arrays, and
  the output window's block is batch `t` of the result. So entry `(u, r, o)` of what point `t` writes back is the
  specification at `(t, r, o)`; the 64 blocks tile the result array — batch `b` of it is written by point `b` —, and
  the array therefore ends holding the specification everywhere.
-/
import proofs.«116833_j29583734735048_1_alg».proof.Proof.Gen.KernelIdeal.Value
import proofs.«116833_j29583734735048_1_alg».proof.Proof.Payload
import Idealize.ShloMosaic.Lib.Pipeline.Value

noncomputable section

open scoped BigOperators

namespace Cert.GraphConv.Run

open Cert.KernelIdeal Cert.KernelIdeal.Gen Cert.KernelIdeal.Value Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The block index of each window at each grid point: the batched windows (adjacency, node features, result)
    are at block `t` along the batch axis and block zero elsewhere; the weights and the bias stay at block zero. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- The result array the specification gives from the argument arrays as launched. -/
abbrev out (c : Dev nD) : Buf (Elt Ideal) ((c : Thread nD τ).loc main_v0) :=
  result (m ((c : Thread nD τ).loc main_arg0)) (m ((c : Thread nD τ).loc main_arg1)) (m ((c : Thread nD τ).loc main_arg2))
    (m ((c : Thread nD τ).loc main_arg3))

/-! ## The input windows' blocks as parts of the argument arrays -/

/-- The adjacency window's block at point `t` is batch `t` of the adjacency array. -/
theorem adj_block (c : Dev nD) (t : Fin cfg0.N) (ht : t.val < 64) (r k : Fin 1024) :
    (iblk m c 0 t : FVec Ideal S1x1024x1024 .f32) (ix3 (0 : Fin 1) r k)
      = (m ((c : Thread nD τ).loc main_arg1) : S64x1024x1024.Idx → EReal) (ix3 (⟨t.val, ht⟩ : Fin 64) r k) := by
  obtain ⟨a0, a1, a2, -⟩ := block_index t
  unfold iblk
  rw [View.read_apply]
  show V m c main_arg1 _ = _
  refine congrArg (m ((c : Thread nD τ).loc main_arg1)) (funext fun a => Fin.ext ?_)
  match a with
  | ⟨0, _⟩ => show win0_0.index t (0 : Fin 3) * 1 + 1 * 0 = t.val; rw [a0]; omega
  | ⟨1, _⟩ => show win0_0.index t (1 : Fin 3) * 1024 + 1 * r.val = r.val; rw [a1]; omega
  | ⟨2, _⟩ => show win0_0.index t (2 : Fin 3) * 1024 + 1 * k.val = k.val; rw [a2]; omega

/-- The node-feature window's block at point `t` is batch `t` of the node-feature array. -/
theorem node_block (c : Dev nD) (t : Fin cfg0.N) (ht : t.val < 64) (j : Fin 1024) (f : Fin 128) :
    (iblk m c 1 t : FVec Ideal S1x1024x128 .f32) (ix3 (0 : Fin 1) j f)
      = (m ((c : Thread nD τ).loc main_arg0) : S64x1024x128.Idx → EReal) (ix3 (⟨t.val, ht⟩ : Fin 64) j f) := by
  obtain ⟨-, -, -, n0, n1, n2, -⟩ := block_index t
  unfold iblk
  rw [View.read_apply]
  show V m c main_arg0 _ = _
  refine congrArg (m ((c : Thread nD τ).loc main_arg0)) (funext fun a => Fin.ext ?_)
  match a with
  | ⟨0, _⟩ => show win0_1.index t (0 : Fin 3) * 1 + 1 * 0 = t.val; rw [n0]; omega
  | ⟨1, _⟩ => show win0_1.index t (1 : Fin 3) * 1024 + 1 * j.val = j.val; rw [n1]; omega
  | ⟨2, _⟩ => show win0_1.index t (2 : Fin 3) * 128 + 1 * f.val = f.val; rw [n2]; omega

/-- The weight window's block is the whole weight matrix, at every point. -/
theorem weight_block (c : Dev nD) (t : Fin cfg0.N) (o f : Fin 128) :
    (iblk m c 2 t : FVec Ideal S128x128 .f32) (ix2 o f)
      = (m ((c : Thread nD τ).loc main_arg2) : S128x128.Idx → EReal) (ix2 o f) := by
  obtain ⟨-, -, -, -, -, -, w0, w1, -⟩ := block_index t
  unfold iblk
  rw [View.read_apply]
  show V m c main_arg2 _ = _
  refine congrArg (m ((c : Thread nD τ).loc main_arg2)) (funext fun a => Fin.ext ?_)
  match a with
  | ⟨0, _⟩ => show win0_2.index t (0 : Fin 2) * 128 + 1 * o.val = o.val; rw [w0]; omega
  | ⟨1, _⟩ => show win0_2.index t (1 : Fin 2) * 128 + 1 * f.val = f.val; rw [w1]; omega

/-- The bias window's block is the whole bias vector, at every point. -/
theorem bias_block (c : Dev nD) (t : Fin cfg0.N) (o : Fin 128) :
    (iblk m c 3 t : FVec Ideal S128 .f32) (ix1 o) = (m ((c : Thread nD τ).loc main_arg3) : S128.Idx → EReal) (ix1 o) := by
  obtain ⟨-, -, -, -, -, -, -, -, b0, -⟩ := block_index t
  unfold iblk
  rw [View.read_apply]
  show V m c main_arg3 _ = _
  refine congrArg (m ((c : Thread nD τ).loc main_arg3)) (funext fun a => Fin.ext ?_)
  match a with
  | ⟨0, _⟩ => show win0_3.index t (0 : Fin 1) * 128 + 1 * o.val = o.val; rw [b0]; omega

/-! ## One entry of what a point writes back -/

/-- From blocks that are batch `b` of the adjacency and node-feature arrays, the whole weights and the whole bias,
    the body's stored entry `(u, r, o)` is the specification at `(b, r, o)`. -/
theorem block_entry (x0 : FVec Ideal S1x1024x1024 .f32) (x1 : FVec Ideal S1x1024x128 .f32) (x2 : FVec Ideal S128x128 .f32)
    (x3 : FVec Ideal S128 .f32) (node : S64x1024x128.Idx → EReal) (adj : S64x1024x1024.Idx → EReal)
    (W : S128x128.Idx → EReal) (bias : S128.Idx → EReal) (b : Fin 64) (u : Fin 1) (r : Fin 1024) (o : Fin 128)
    (hadj : ∀ k : Fin 1024, x0 (ix3 (0 : Fin 1) r k) = adj (ix3 b r k))
    (hnode : ∀ (j : Fin 1024) (f : Fin 128), x1 (ix3 (0 : Fin 1) j f) = node (ix3 b j f))
    (hW : ∀ f : Fin 128, x2 (ix2 o f) = W (ix2 o f)) (hb : x3 (ix1 o) = bias (ix1 o)) :
    k0_pay1 (F := Ideal) x0 x1 x2 x3 (ix3 u r o) = result node adj W bias (ix3 b r o) := by
  have e0 : (fun k : Fin 1024 => x0 (ix3 (0 : Fin 1) r k)) = fun k => adj (ix3 b r k) := funext hadj
  have e1 : (fun (j : Fin 1024) (f : Fin 128) => x1 (ix3 (0 : Fin 1) j f)) = fun j f => node (ix3 b j f) :=
    funext fun j => funext fun f => hnode j f
  have e2 : (fun f : Fin 128 => x2 (ix2 o f)) = fun f => W (ix2 o f) := funext hW
  rw [Body.payload_apply, e0, e1, e2, hb]
  rfl

/-! ## What point `t` writes back, the cover, and the final array -/

/-- Point `t` writes back block `t` of the specification's array. -/
theorem flushed_eq (c : Dev nD) (t : Fin cfg0.N) :
    (dats m 0 c).flushed 4 t = ((cfg0.win 4).blk t).view.read (Elt Ideal) (out m c) := by
  rw [flushed4]
  unfold out0_4
  rw [View.canon_unit_zero zero3]
  simp only [View.ld_unit_zero (S := S1x1024x1024) zero3, View.ld_unit_zero (S := S1x1024x128) zero3,
    View.ld_unit_zero (S := S128x128) zero2, View.ld_unit_zero (S := S128) zero1]
  obtain ⟨-, -, -, -, -, -, -, -, -, o0, o1, o2⟩ := block_index t
  have hN : cfg0.N = 64 := N_0
  have ht : t.val < 64 := by have := t.isLt; omega
  funext y
  have hy0 : (y 0).val < 1 := (y 0).isLt
  have hy1 : (y 1).val < 1024 := (y 1).isLt
  have hy2 : (y 2).val < 128 := (y 2).isLt
  show k0_pay1 (F := Ideal) (iblk m c 0 t) (iblk m c 1 t) (iblk m c 2 t) (iblk m c 3 t) (win0_4.xinj (grid0.coords t) y)
    = out m c (((cfg0.win 4).blk t).view.emb y)
  have ez : win0_4.xinj (grid0.coords t) y
      = ix3 (⟨(y 0).val, hy0⟩ : Fin 1) (⟨(y 1).val, hy1⟩ : Fin 1024) (⟨(y 2).val, hy2⟩ : Fin 128) :=
    funext fun a => Fin.ext (by
      match a with
      | ⟨0, _⟩ => rfl
      | ⟨1, _⟩ => rfl
      | ⟨2, _⟩ => rfl)
  have ei : ((cfg0.win 4).blk t).view.emb y
      = ix3 (⟨t.val, ht⟩ : Fin 64) (⟨(y 1).val, hy1⟩ : Fin 1024) (⟨(y 2).val, hy2⟩ : Fin 128) :=
    funext fun a => Fin.ext (by
      match a with
      | ⟨0, _⟩ => show win0_4.index t (0 : Fin 3) * 1 + 1 * (y 0).val = t.val; rw [o0]; omega
      | ⟨1, _⟩ => show win0_4.index t (1 : Fin 3) * 1024 + 1 * (y 1).val = (y 1).val; rw [o1]; omega
      | ⟨2, _⟩ => show win0_4.index t (2 : Fin 3) * 128 + 1 * (y 2).val = (y 2).val; rw [o2]; omega)
  refine (congrArg (k0_pay1 (F := Ideal) (iblk m c 0 t) (iblk m c 1 t) (iblk m c 2 t) (iblk m c 3 t)) ez).trans ?_
  refine Eq.trans ?_ (congrArg (out m c) ei).symm
  exact block_entry _ _ _ _ _ _ _ _ ⟨t.val, ht⟩ _ _ _ (fun k => adj_block m c t ht _ k) (fun j f => node_block m c t ht j f)
    (fun f => weight_block m c t _ f) (bias_block m c t _)

/-- An index of the result array is in point `t`'s block iff each coordinate is in the block's range on its axis. -/
theorem mem_block (t : Fin cfg0.N) (i : S64x1024x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v0).slice (win0_4.rect t)).set ↔ _
  rw [View.set_slice_whole, Rect.mem_set_unit]
  exact Iff.rfl

/-- Every index of the result array is in the block of the point of its batch. -/
theorem covered (i : S64x1024x128.Idx) :
    ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 128 := (i 2).isLt
  have hN : cfg0.N = 64 := N_0
  obtain ⟨t, ht⟩ : ∃ t : Fin cfg0.N, t.val = (i 0).val := ⟨⟨(i 0).val, by omega⟩, rfl⟩
  obtain ⟨-, -, -, -, -, -, -, -, -, o0, o1, o2⟩ := block_index t
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    rw [o0]; omega
  | ⟨1, _⟩ =>
    show win0_4.index t (1 : Fin 3) * 1024 ≤ (i 1).val ∧ (i 1).val < win0_4.index t (1 : Fin 3) * 1024 + 1024
    rw [o1]; omega
  | ⟨2, _⟩ =>
    show win0_4.index t (2 : Fin 3) * 128 ≤ (i 2).val ∧ (i 2).val < win0_4.index t (2 : Fin 3) * 128 + 128
    rw [o2]; omega

/-- The result array after the run is the specification's. -/
theorem final (c : Dev nD) : (dats m 0 c).arrAt 4 cfg0.N = out m c :=
  (dats m 0 c).arrAt_eq_of_cover 4 (out m c) (fun t _ => flushed_eq m c t) covered

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.GraphConv.Run

end
-- ==== Proof.lean ====
/-
  A graph-convolution layer over 64 batches of 1024 nodes: each adjacency row is divided by its degree (the row's
  sum), the normalized adjacency aggregates the 128 node features, a linear layer (weights transposed, bias added)
  follows, then a leaky rectifier. The kernel does one batch per grid point, in one block; the reference does the
  same with whole-array operations. Over the extended reals the two are one function of the argument arrays:
    * the specification, index by index (Proof/Spec.lean);
    * the reference's result is the specification (Proof/RefIsSpec.lean, over the generated reading of its run);
    * the kernel body's stored block, read at an entry, is the specification's entry of the blocks' rows
      (Proof/Payload.lean; Proof/LibColumn.lean has the two column layout readings it needs);
    * each grid point writes back its batch of the specification and the 64 blocks tile the result
      (Proof/KernelValue.lean, over the generated blockwise value leg).
  The same operations are applied in the same order and grouping on both sides, so the inputs' finiteness is
  never used. The frames of the two kernel programs are the generated ones; the reference's frame is its
  generated run with the result dropped. The idealization rewrote nothing, so `preserves` is `True`.
-/
import proofs.«116833_j29583734735048_1_alg».proof.Defs
import proofs.«116833_j29583734735048_1_alg».proof.Proof.Gen.Kernel
import proofs.«116833_j29583734735048_1_alg».proof.Proof.Gen.Kernel.Skeleton
import proofs.«116833_j29583734735048_1_alg».proof.Proof.Gen.Kernel.Launch
import proofs.«116833_j29583734735048_1_alg».proof.Proof.Gen.Kernel.Points
import proofs.«116833_j29583734735048_1_alg».proof.Proof.Gen.Kernel.Frame
import proofs.«116833_j29583734735048_1_alg».proof.Proof.Gen.KernelIdeal
import proofs.«116833_j29583734735048_1_alg».proof.Proof.Gen.KernelIdeal.Skeleton
import proofs.«116833_j29583734735048_1_alg».proof.Proof.Gen.KernelIdeal.Launch
import proofs.«116833_j29583734735048_1_alg».proof.Proof.Gen.KernelIdeal.Points
import proofs.«116833_j29583734735048_1_alg».proof.Proof.Gen.KernelIdeal.Frame
import proofs.«116833_j29583734735048_1_alg».proof.Proof.Gen.ReferenceIdeal
import proofs.«116833_j29583734735048_1_alg».proof.Proof.Gen.Pre_finite_inputs
import proofs.«116833_j29583734735048_1_alg».proof.Proof.Gen.KernelIdeal.Value
import proofs.«116833_j29583734735048_1_alg».proof.Proof.Gen.ReferenceIdeal.Run
import proofs.«116833_j29583734735048_1_alg».proof.Proof.Gen.ReferenceIdeal.Read
import proofs.«116833_j29583734735048_1_alg».proof.Proof.RefIsSpec
import proofs.«116833_j29583734735048_1_alg».proof.Proof.KernelValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the idealized kernel's result array ends at the specification of
    its arguments, and the idealized reference's at the specification of its own, which are the same arrays. -/
theorem algebraic : Cert.algebraic_KernelIdeal_ReferenceIdeal := by
  intro m ρ m' ρ' _ hagree
  refine ⟨fun c => Cert.GraphConv.Run.out m c, Cert.GraphConv.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.GraphConv.Ref.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
